-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S16384x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x64x64x128 : Shape := ⟨5, ![4, 16, 64, 64, 128]⟩
abbrev S16x4 : Shape := ⟨2, ![16, 4]⟩
abbrev S128x128 : Shape := ⟨2, ![128, 128]⟩
abbrev S128 : Shape := ⟨1, ![128]⟩
abbrev S_ : Shape := ⟨0, ![]⟩

class Facts : Prop where
  bcast_S_S4x16x64x64x128 : S_.BroadcastsInDim S4x16x64x64x128 (![] : Fin 0 → Fin S4x16x64x64x128.rank)
  reducesTo_S4x16x64x64x128_S_d0_1_2_3_4 : S4x16x64x64x128.ReducesTo [0, 1, 2, 3, 4] S_
  h_S_ : 0 < S_.numel
  bcast_S_S16x4 : S_.BroadcastsInDim S16x4 (![] : Fin 0 → Fin S16x4.rank)
  reducesTo_S16x4_S_d0_1 : S16x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x16x64x64x128 .f32) (main_arg1 : FVec F S16x4 .f32) (main_arg2 : FVec F S128x128 .f32) (main_arg3 : FVec F S128 .f32) : IVec S_ 1 :=
  let main_v0 : FVec F S4x16x64x64x128 .f32 := Host.absf main_arg0
  let main_cst : FVec F S_ .f32 := constant S_ .f32 0x7F800000#32
  let main_v1 : FVec F S4x16x64x64x128 .f32 := broadcastInDim S4x16x64x64x128 ![] bcast_S_S4x16x64x64x128 main_cst
  let main_v2 : IVec S4x16x64x64x128 1 := cmpf .olt main_v0 main_v1
  let main_c : IVec S_ 1 := constantI S_ 1 1#1
  let main_v3 : IVec S_ 1 := (fun x v => Host.reduce IntOp.andi x v reducesTo_S4x16x64x64x128_S_d0_1_2_3_4 h_S_) main_v2 main_c
  let main_v4 : FVec F S16x4 .f32 := Host.absf main_arg1
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x16x64x64x128 : Shape := ⟨5, ![4, 16, 64, 64, 128]⟩
abbrev S16x4 : Shape := ⟨2, ![16, 4]⟩
abbrev S128x128 : Shape := ⟨2, ![128, 128]⟩
abbrev S128 : Shape := ⟨1, ![128]⟩
abbrev S1x16x1x4 : Shape := ⟨4, ![1, 16, 1, 4]⟩
abbrev S8x16x1x4 : Shape := ⟨4, ![8, 16, 1, 4]⟩
abbrev S128x4 : Shape := ⟨2, ![128, 4]⟩
abbrev S4x16x4096x128 : Shape := ⟨4, ![4, 16, 4096, 128]⟩
abbrev S1x16x1024x128 : Shape := ⟨4, ![1, 16, 1024, 128]⟩
abbrev S16x1024x128 : Shape := ⟨3, ![16, 1024, 128]⟩
abbrev S128x1 : Shape := ⟨2, ![128, 1]⟩
abbrev S1x1x128 : Shape := ⟨3, ![1, 1, 128]⟩
abbrev S1x1024x128 : Shape := ⟨3, ![1, 1024, 128]⟩
abbrev S15x1024x128 : Shape := ⟨3, ![15, 1024, 128]⟩
abbrev S2x1024x128 : Shape := ⟨3, ![2, 1024, 128]⟩
abbrev S14x1024x128 : Shape := ⟨3, ![14, 1024, 128]⟩
abbrev S3x1024x128 : Shape := ⟨3, ![3, 1024, 128]⟩
abbrev S13x1024x128 : Shape := ⟨3, ![13, 1024, 128]⟩
abbrev S16384x128 : Shape := ⟨2, ![16384, 128]⟩
abbrev S1x128 : Shape := ⟨2, ![1, 128]⟩

abbrev nBuf : Space → Nat
  | .hbm => 10
  | .vmem => 7
  | .smem => 0
  | _ => 0

abbrev bufTy : (tb : Table) → Fin (tcTables nBuf tb) → BufTy
  | .hbm, ⟨0, _⟩ => ⟨S4x16x64x64x128, .f32⟩
  | .hbm, ⟨1, _⟩ => ⟨S16x4, .f32⟩
  | .hbm, ⟨2, _⟩ => ⟨S128x128, .f32⟩
  | .hbm, ⟨3, _⟩ => ⟨S128, .f32⟩
  | .hbm, ⟨4, _⟩ => ⟨S1x16x1x4, .f32⟩
  | .hbm, ⟨5, _⟩ => ⟨S8x16x1x4, .f32⟩
  | .hbm, ⟨6, _⟩ => ⟨S128x4, .f32⟩
  | .hbm, ⟨7, _⟩ => ⟨S4x16x4096x128, .f32⟩
  | .hbm, ⟨8, _⟩ => ⟨S4x16x4096x128, .f32⟩
  | .hbm, ⟨9, _⟩ => ⟨S4x16x64x64x128, .f32⟩
  | .local _ .vmem, ⟨0, _⟩ => ⟨S1x16x1024x128, .f32⟩
  | .local _ .vmem, ⟨1, _⟩ => ⟨S1x16x1024x128, .f32⟩
  | .local _ .vmem, ⟨2, _⟩ => ⟨S128x4, .f32⟩
  | .local _ .vmem, ⟨3, _⟩ => ⟨S128x128, .f32⟩
  | .local _ .vmem, ⟨4, _⟩ => ⟨S128, .f32⟩
  | .local _ .vmem, ⟨5, _⟩ => ⟨S1x16x1024x128, .f32⟩
  | .local _ .vmem, ⟨6, _⟩ => ⟨S1x16x1024x128, .f32⟩
  | _, _ => ⟨S4x16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x4_S1x16x1x4 : S16x4.ShapeCasts S1x16x1x4
  bcast_S1x16x1x4_S8x16x1x4_0_1_2_3 : S1x16x1x4.BroadcastsInDim S8x16x1x4 (![0, 1, 2, 3] : Fin 4 → Fin S8x16x1x4.rank)
  shapeCasts_S8x16x1x4_S128x4 : S8x16x1x4.ShapeCasts S128x4
  shapeCasts_S4x16x64x64x128_S4x16x4096x128 : S4x16x64x64x128.ShapeCasts S4x16x4096x128
  inb_S1x16x1024x128_S1x16x1024x128_0_0_0_0 : ∀ a, (![0, 0, 0, 0] : Fin 4 → Nat) a + S1x16x1024x128.size a ≤ S1x16x1024x128.size a
  h_S1x16x1024x128 : 0 < S1x16x1024x128.numel
  shapeCasts_S1x16x1024x128_S16x1024x128 : S1x16x1024x128.ShapeCasts S16x1024x128
  inb_S128x4_S128x4_0_0 : ∀ a, (![0, 0] : Fin 2 → Nat) a + S128x4.size a ≤ S128x4.size a
  h_S128x4 : 0 < S128x4.numel
  slices_S128x4_o0_0_S128x1 : S128x4.Slices ![0, 0] S128x1
  shapeCasts_S128x1_S128 : S128x1.ShapeCasts S128
  shapeCasts_S128_S1x1x128 : S128.ShapeCasts S1x1x128
  broadcasts_S1x1x128_S16x1024x128 : S1x1x128.Broadcasts S16x1024x128
  slices_S128x4_o0_1_S128x1 : S128x4.Slices ![0, 1] S128x1
  slices_S16x1024x128_o0_0_0_S15x1024x128 : S16x1024x128.Slices ![0, 0, 0] S15x1024x128
  concatenates_S1x1024x128_S15x1024x128_S16x1024x128_d0 : Shape.Concatenates [S1x1024x128, S15x1024x128] S16x1024x128 0
  slices_S128x4_o0_2_S128x1 : S128x4.Slices ![0, 2] S128x1
  slices_S16x1024x128_o0_0_0_S14x1024x128 : S16x1024x128.Slices ![0, 0, 0] S14x1024x128
  concatenates_S2x1024x128_S14x1024x128_S16x1024x128_d0 : Shape.Concatenates [S2x1024x128, S14x1024x128] S16x1024x128 0
  slices_S128x4_o0_3_S128x1 : S128x4.Slices ![0, 3] S128x1
  slices_S16x1024x128_o0_0_0_S13x1024x128 : S16x1024x128.Slices ![0, 0, 0] S13x1024x128
  concatenates_S3x1024x128_S13x1024x128_S16x1024x128_d0 : Shape.Concatenates [S3x1024x128, S13x1024x128] S16x1024x128 0
  shapeCasts_S16x1024x128_S16384x128 : S16x1024x128.ShapeCasts S16384x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  shapeCasts_S16384x128_S16x1024x128 : S16384x128.ShapeCasts S16x1024x128
  shapeCasts_S16x1024x128_S1x16x1024x128 : S16x1024x128.ShapeCasts S1x16x1024x128
  shapeCasts_S4x16x4096x128_S4x16x64x64x128 : S4x16x4096x128.ShapeCasts S4x16x64x64x128
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1024x128.size a ≤ S4x16x4096x128.size a
  hwx0_0 : ∀ i : grid0.Coords, EltTy.bits .f32 = 32 ∨ (Rect.block (s := S4x16x4096x128) S1x16x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1024x128.size a ≤ S4x16x4096x128.size a
  hwx0_4 : ∀ i : grid0.Coords, EltTy.bits .f32 = 32 ∨ (Rect.block (s := S4x16x4096x128) S1x16x1024x128.size (cc0_transform_4 i) (hinb0_4 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v3) S1x16x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x16x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x64x64x128 : Shape := ⟨5, ![4, 16, 64, 64, 128]⟩
abbrev S16x4 : Shape := ⟨2, ![16, 4]⟩
abbrev S128x128 : Shape := ⟨2, ![128, 128]⟩
abbrev S128 : Shape := ⟨1, ![128]⟩
abbrev S1x16x1x4 : Shape := ⟨4, ![1, 16, 1, 4]⟩
abbrev S8x16x1x4 : Shape := ⟨4, ![8, 16, 1, 4]⟩
abbrev S128x4 : Shape := ⟨2, ![128, 4]⟩
abbrev S_ : Shape := ⟨0, ![]⟩
abbrev S4x19x64x64x128 : Shape := ⟨5, ![4, 19, 64, 64, 128]⟩
abbrev S128x1 : Shape := ⟨2, ![128, 1]⟩
abbrev S1x1x1x1x128 : Shape := ⟨5, ![1, 1, 1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S4x16x64x64x128, .f32⟩
  | .hbm, ⟨1, _⟩ => ⟨S16x4, .f32⟩
  | .hbm, ⟨2, _⟩ => ⟨S128x128, .f32⟩
  | .hbm, ⟨3, _⟩ => ⟨S128, .f32⟩
  | .hbm, ⟨4, _⟩ => ⟨S1x16x1x4, .f32⟩
  | .hbm, ⟨5, _⟩ => ⟨S8x16x1x4, .f32⟩
  | .hbm, ⟨6, _⟩ => ⟨S128x4, .f32⟩
  | .hbm, ⟨7, _⟩ => ⟨S_, .i32⟩
  | .hbm, ⟨8, _⟩ => ⟨S_, .f32⟩
  | .hbm, ⟨9, _⟩ => ⟨S4x19x64x64x128, .f32⟩
  | .hbm, ⟨10, _⟩ => ⟨S_, .f32⟩
  | .hbm, ⟨11, _⟩ => ⟨S4x16x64x64x128, .f32⟩
  | .hbm, ⟨12, _⟩ => ⟨S4x16x64x64x128, .f32⟩
  | .hbm, ⟨13, _⟩ => ⟨S128x1, .f32⟩
  | .hbm, ⟨14, _⟩ => ⟨S128, .f32⟩
  | .hbm, ⟨15, _⟩ => ⟨S1x1x1x1x128, .f32⟩
  | .hbm, ⟨16, _⟩ => ⟨S4x16x64x64x128, .f32⟩
  | .hbm, ⟨17, _⟩ => ⟨S4x16x64x64x128, .f32⟩
  | .hbm, ⟨18, _⟩ => ⟨S4x16x64x64x128, .f32⟩
  | .hbm, ⟨19, _⟩ => ⟨S4x16x64x64x128, .f32⟩
  | .hbm, ⟨20, _⟩ => ⟨S128x1, .f32⟩
  | .hbm, ⟨21, _⟩ => ⟨S128, .f32⟩
  | .hbm, ⟨22, _⟩ => ⟨S1x1x1x1x128, .f32⟩
  | .hbm, ⟨23, _⟩ => ⟨S4x16x64x64x128, .f32⟩
  | .hbm, ⟨24, _⟩ => ⟨S4x16x64x64x128, .f32⟩
  | .hbm, ⟨25, _⟩ => ⟨S4x16x64x64x128, .f32⟩
  | .hbm, ⟨26, _⟩ => ⟨S4x16x64x64x128, .f32⟩
  | .hbm, ⟨27, _⟩ => ⟨S128x1, .f32⟩
  | .hbm, ⟨28, _⟩ => ⟨S128, .f32⟩
  | .hbm, ⟨29, _⟩ => ⟨S1x1x1x1x128, .f32⟩
  | .hbm, ⟨30, _⟩ => ⟨S4x16x64x64x128, .f32⟩
  | .hbm, ⟨31, _⟩ => ⟨S4x16x64x64x128, .f32⟩
  | .hbm, ⟨32, _⟩ => ⟨S4x16x64x64x128, .f32⟩
  | .hbm, ⟨33, _⟩ => ⟨S4x16x64x64x128, .f32⟩
  | .hbm, ⟨34, _⟩ => ⟨S128x1, .f32⟩
  | .hbm, ⟨35, _⟩ => ⟨S128, .f32⟩
  | .hbm, ⟨36, _⟩ => ⟨S1x1x1x1x128, .f32⟩
  | .hbm, ⟨37, _⟩ => ⟨S4x16x64x64x128, .f32⟩
  | .hbm, ⟨38, _⟩ => ⟨S4x16x64x64x128, .f32⟩
  | .hbm, ⟨39, _⟩ => ⟨S4x16x64x64x128, .f32⟩
  | .hbm, ⟨40, _⟩ => ⟨S4x16x64x64x128, .f32⟩
  | .hbm, ⟨41, _⟩ => ⟨S1x1x1x1x128, .f32⟩
  | .hbm, ⟨42, _⟩ => ⟨S4x16x64x64x128, .f32⟩
  | .hbm, ⟨43, _⟩ => ⟨S4x16x64x64x128, .f32⟩
  | _, _ => ⟨S4x16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]

class Facts₀ : Prop where
  shapeCasts_S16x4_S1x16x1x4 : S16x4.ShapeCasts S1x16x1x4
  bcast_S1x16x1x4_S8x16x1x4_0_1_2_3 : S1x16x1x4.BroadcastsInDim S8x16x1x4 (![0, 1, 2, 3] : Fin 4 → Fin S8x16x1x4.rank)
  shapeCasts_S8x16x1x4_S128x4 : S8x16x1x4.ShapeCasts S128x4
  pads_S4x16x64x64x128_S4x19x64x64x128_000_300_000_000_000 : S4x16x64x64x128.Pads (![0, 3, 0, 0, 0] : Fin 5 → Nat) ![0, 0, 0, 0, 0] ![0, 0, 0, 0, 0] S4x19x64x64x128
  h_S_ : 0 < S_.numel
  bcast_S_S4x16x64x64x128 : S_.BroadcastsInDim S4x16x64x64x128 (![] : Fin 0 → Fin S4x16x64x64x128.rank)
  slices_S4x19x64x64x128_S4x16x64x64x128_0_3_0_0_0 : S4x19x64x64x128.Slices ![0, 3, 0, 0, 0] S4x16x64x64x128
  slices_S128x4_S128x1_0_0 : S128x4.Slices ![0, 0] S128x1
  shapeCasts_S128x1_S128 : S128x1.ShapeCasts S128
  bcast_S128_S1x1x1x1x128_4 : S128.BroadcastsInDim S1x1x1x1x128 (![4] : Fin 1 → Fin S1x1x1x1x128.rank)
  bcast_S1x1x1x1x128_S4x16x64x64x128_0_1_2_3_4 : S1x1x1x1x128.BroadcastsInDim S4x16x64x64x128 (![0, 1, 2, 3, 4] : Fin 5 → Fin S4x16x64x64x128.rank)
  slices_S4x19x64x64x128_S4x16x64x64x128_0_2_0_0_0 : S4x19x64x64x128.Slices ![0, 2, 0, 0, 0] S4x16x64x64x128
  slices_S128x4_S128x1_0_1 : S128x4.Slices ![0, 1] S128x1
  slices_S4x19x64x64x128_S4x16x64x64x128_0_1_0_0_0 : S4x19x64x64x128.Slices ![0, 1, 0, 0, 0] S4x16x64x64x128
  slices_S128x4_S128x1_0_2 : S128x4.Slices ![0, 2] S128x1
  slices_S4x19x64x64x128_S4x16x64x64x128_0_0_0_0_0 : S4x19x64x64x128.Slices ![0, 0, 0, 0, 0] S4x16x64x64x128
  slices_S128x4_S128x1_0_3 : S128x4.Slices ![0, 3] S128x1
  dot_S4x16x64x64x128_S128x128_S4x16x64x64x128_4_0_0123_1_n_n_wf : DotDims.WF S4x16x64x64x128 S128x128 S4x16x64x64x128 [4] [0] [0, 1, 2, 3] [1] [] []

variable [Facts₀]

def dot_S4x16x64x64x128_S128x128_S4x16x64x64x128_4_0_0123_1_n_n : DotDims S4x16x64x64x128 S128x128 S4x16x64x64x128 where
  lhsContracting := [4]
  rhsContracting := [0]
  lhsNonContracting := [0, 1, 2, 3]
  rhsNonContracting := [1]
  lhsBatch := []
  rhsBatch := []
  wf := dot_S4x16x64x64x128_S128x128_S4x16x64x64x128_4_0_0123_1_n_n_wf

class Facts : Prop extends Facts₀ where

variable [Facts]
-- ==== Proof.Spec.lean ====
/-
  The function both programs compute, stated once, index by index, over the extended reals.

  Along the depth axis (extent 16) every channel `c` of the input is filtered causally by four taps,
      y[d] = x[d]·t₀ + x[d−1]·t₁ + x[d−2]·t₂ + x[d−3]·t₃        (a term with d − k < 0 is 0),
  the taps of channel `c` being row `c mod 16` of the 16 × 4 filter (the filter tiled eight times down the 128 channels);
  then the 128 channels are mixed by a matrix and a bias is added:
      out[o] = Σ_c y[c] · W[c, o] + b[o].
  The kernel forms the product twice — once with `y` and once with the remainder `y − y` that is left after `y` has been
  split into a leading part and a rest — and adds the two: `Σ_c y·W + Σ_c (y − y)·W + b`. On the extended reals
  `y − y` is `0` exactly when `y` is a real number (`⊤ − ⊤` is not `0`), so the two agree where the filtered value is finite,
  which it is when the input and the filter are.
-/
import Idealize.ShloMosaic.PureOps.Ideal
import Idealize.ShloMosaic.Lib.ValueIdx

noncomputable section

namespace Cert.Cepstral

open Idealize.ShloMosaic Idealize.ShloMosaic.ValueIdx

/-! ## Real-valued extended reals -/

/-- An extended real that is a real number. -/
def IsReal (a : EReal) : Prop := ∃ r : ℝ, a = (r : EReal)

theorem isReal_zero : IsReal 0 := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A real number less itself is zero (false at the infinities). -/
theorem IsReal.sub_self {a : EReal} (ha : IsReal a) : a - a = 0 := by
  obtain ⟨r, rfl⟩ := ha
  rw [← EReal.coe_sub, _root_.sub_self, EReal.coe_zero]

/-! ## One channel along the depth axis -/

/-- The column moved `k` steps down the depth axis: entry `d` is entry `d − k`, and `0` in the first `k` places. -/
def shifted (xcol : Fin 16 → EReal) (d : Fin 16) (k : Nat) : EReal :=
  if h : k ≤ d.val then xcol ⟨d.val - k, by have := d.isLt; omega⟩ else 0

/-- The causal four-tap filter of one column at depth `d`, summed in the order both programs use. -/
def conv (xcol : Fin 16 → EReal) (tap : Fin 4 → EReal) (d : Fin 16) : EReal :=
  ((xcol d * tap 0 + shifted xcol d 1 * tap 1) + shifted xcol d 2 * tap 2) + shifted xcol d 3 * tap 3

theorem shifted_isReal {xcol : Fin 16 → EReal} (hx : ∀ d, IsReal (xcol d)) (d : Fin 16) (k : Nat) :
    IsReal (shifted xcol d k) := by
  unfold shifted
  split
  · exact hx _
  · exact isReal_zero

theorem conv_isReal {xcol : Fin 16 → EReal} {tap : Fin 4 → EReal} (hx : ∀ d, IsReal (xcol d)) (ht : ∀ q, IsReal (tap q))
    (d : Fin 16) : IsReal (conv xcol tap d) :=
  ((((hx d).mul (ht 0)).add ((shifted_isReal hx d 1).mul (ht 1))).add ((shifted_isReal hx d 2).mul (ht 2))).add
    ((shifted_isReal hx d 3).mul (ht 3))

/-! ## Mixing the channels -/

/-- The channels mixed by one column of the matrix, plus the bias. -/
def proj (ycol wcol : Fin 128 → EReal) (bias : EReal) : EReal := (∑ k, ycol k * wcol k) + bias

/-- The same with the product formed twice, the second time on the remainder `y − y`. -/
def projSplit (ycol wcol : Fin 128 → EReal) (bias : EReal) : EReal :=
  ((∑ k, ycol k * wcol k) + ∑ k, (ycol k - ycol k) * wcol k) + bias

/-- Where every filtered value is a real number the remainder is zero, its product with anything is zero, and the
    second sum drops out. -/
theorem projSplit_eq_proj {ycol : Fin 128 → EReal} (hy : ∀ k, IsReal (ycol k)) (wcol : Fin 128 → EReal) (bias : EReal) :
    projSplit ycol wcol bias = proj ycol wcol bias := by
  unfold projSplit proj
  have h0 : (∑ k, (ycol k - ycol k) * wcol k) = 0 :=
    Finset.sum_eq_zero fun k _ => by rw [(hy k).sub_self, zero_mul]
  rw [h0, add_zero]

/-! ## The whole arrays -/

/-- The taps of channel `c`: row `c mod 16` of the filter. -/
def tapOf (kern : (⟨2, ![16, 4]⟩ : Shape).Idx → EReal) (c : Fin 128) : Fin 4 → EReal :=
  fun q => kern (ix2 (⟨c.val % 16, Nat.mod_lt _ (by decide)⟩ : Fin 16) q)

/-- The result array: at `(b, d, h, w, o)` the channels of the filtered column through `(b, ·, h, w, ·)`, mixed by column
    `o` of the matrix, plus the bias at `o`. -/
def G (x : (⟨5, ![4, 16, 64, 64, 128]⟩ : Shape).Idx → EReal) (kern : (⟨2, ![16, 4]⟩ : Shape).Idx → EReal)
    (W : (⟨2, ![128, 128]⟩ : Shape).Idx → EReal) (bias : (⟨1, ![128]⟩ : Shape).Idx → EReal) :
    (⟨5, ![4, 16, 64, 64, 128]⟩ : Shape).Idx → EReal :=
  fun i => proj (fun k : Fin 128 => conv (fun d' : Fin 16 => x (ix5 (i 0) d' (i 2) (i 3) k)) (tapOf kern k) (i 1))
    (fun k : Fin 128 => W (ix2 k (i 4))) (bias (ix1 (i 4)))

/-- The same with the product formed twice: what the kernel stores. -/
def Gsplit (x : (⟨5, ![4, 16, 64, 64, 128]⟩ : Shape).Idx → EReal) (kern : (⟨2, ![16, 4]⟩ : Shape).Idx → EReal)
    (W : (⟨2, ![128, 128]⟩ : Shape).Idx → EReal) (bias : (⟨1, ![128]⟩ : Shape).Idx → EReal) :
    (⟨5, ![4, 16, 64, 64, 128]⟩ : Shape).Idx → EReal :=
  fun i => projSplit (fun k : Fin 128 => conv (fun d' : Fin 16 => x (ix5 (i 0) d' (i 2) (i 3) k)) (tapOf kern k) (i 1))
    (fun k : Fin 128 => W (ix2 k (i 4))) (bias (ix1 (i 4)))

/-- For a finite input and a finite filter the two are one function. -/
theorem Gsplit_eq_G {x : (⟨5, ![4, 16, 64, 64, 128]⟩ : Shape).Idx → EReal} {kern : (⟨2, ![16, 4]⟩ : Shape).Idx → EReal}
    (hx : ∀ i, IsReal (x i)) (hk : ∀ i, IsReal (kern i))
    (W : (⟨2, ![128, 128]⟩ : Shape).Idx → EReal) (bias : (⟨1, ![128]⟩ : Shape).Idx → EReal) :
    Gsplit x kern W bias = G x kern W bias :=
  funext fun i => projSplit_eq_proj (fun k => conv_isReal (fun _ => hx _) (fun _ => hk _) (i 1)) _ _

end Cert.Cepstral

end
-- ==== Proof.Layout.lean ====
/-
  The layout operations of this computation, each read at one index over literal extents.

  * the 16 × 4 filter tiled eight times down 128 rows (reshape, broadcast along a new leading axis, reshape): row `k` of
    the result is row `k mod 16` of the filter;
  * the image axes 64 × 64 merged into one axis of 4096 and split again: position `h·64 + w`;
  * a column of the tiled filter laid along the channel axis of a 16 × 1024 × 128 block;
  * a block moved `n` steps down its leading axis behind `n` rows of a constant;
  * a 128-vector laid along every row of a 16384 × 128 matrix;
  * the 16 × 1024 leading axes of a block merged into 16384 rows and split again: row `d·1024 + s`;
  * a leading axis of extent one dropped and added.
-/
import Idealize.ShloMosaic.Lib.Pipeline.Value
import Idealize.ShloMosaic.Lib.ValueIdx

noncomputable section

namespace Cert.Cepstral

open Idealize.ShloMosaic Idealize.ShloMosaic.ValueIdx

variable {α : Type}

/-- Row `k` of the filter tiled eight times is row `k mod 16` of the filter. -/
theorem tile_apply (x : (⟨2, ![16, 4]⟩ : Shape).Idx → α)
    (h1 : (⟨2, ![16, 4]⟩ : Shape).ShapeCasts ⟨4, ![1, 16, 1, 4]⟩)
    (hb : (⟨4, ![1, 16, 1, 4]⟩ : Shape).BroadcastsInDim ⟨4, ![8, 16, 1, 4]⟩ ![0, 1, 2, 3])
    (h2 : (⟨4, ![8, 16, 1, 4]⟩ : Shape).ShapeCasts ⟨2, ![128, 4]⟩) (k : Fin 128) (q : Fin 4) :
    shapeCast ⟨2, ![128, 4]⟩ (broadcastInDim ⟨4, ![8, 16, 1, 4]⟩ ![0, 1, 2, 3] hb (shapeCast ⟨4, ![1, 16, 1, 4]⟩ x h1)) h2 (ix2 k q)
      = x (ix2 (⟨k.val % 16, Nat.mod_lt _ (by decide)⟩ : Fin 16) q) := by
  have hk : k.val < 128 := k.isLt
  have hq : q.val < 4 := q.isLt
  refine (shapeCast_apply _ h2 (ix2 k q)
    (ix4 (⟨k.val / 16, by omega⟩ : Fin 8) (⟨k.val % 16, Nat.mod_lt _ (by decide)⟩ : Fin 16) (0 : Fin 1) q) ?_).trans ?_
  · rewrite [Shape.rowMajor_val_four, Shape.rowMajor_val_two]
    show ((k.val / 16 * 16 + k.val % 16) * 1 + 0) * 4 + q.val = k.val * 4 + q.val
    omega
  refine (broadcastInDim_apply _ hb _ _
    (ix4 (0 : Fin 1) (⟨k.val % 16, Nat.mod_lt _ (by decide)⟩ : Fin 16) (0 : Fin 1) q) (fun a => ?_)).trans ?_
  · match a with
    | ⟨0, _⟩ => show 0 = if (1 : Nat) = 1 then 0 else k.val / 16; rw [if_pos rfl]
    | ⟨1, _⟩ => show k.val % 16 = if (16 : Nat) = 1 then 0 else k.val % 16; rw [if_neg (by decide)]
    | ⟨2, _⟩ => show 0 = if (1 : Nat) = 1 then 0 else 0; rw [if_pos rfl]
    | ⟨3, _⟩ => show q.val = if (4 : Nat) = 1 then 0 else q.val; rw [if_neg (by decide)]
  refine shapeCast_apply x h1 _ (ix2 (⟨k.val % 16, Nat.mod_lt _ (by decide)⟩ : Fin 16) q) ?_
  rewrite [Shape.rowMajor_val_two, Shape.rowMajor_val_four]
  show k.val % 16 * 4 + q.val = ((0 * 16 + k.val % 16) * 1 + 0) * 4 + q.val
  omega

/-- The image axes merged: position `S` of the merged axis is `(S / 64, S mod 64)`. -/
theorem mergeHW_apply (x : (⟨5, ![4, 16, 64, 64, 128]⟩ : Shape).Idx → α)
    (h : (⟨5, ![4, 16, 64, 64, 128]⟩ : Shape).ShapeCasts ⟨4, ![4, 16, 4096, 128]⟩)
    (b : Fin 4) (d : Fin 16) (S : Fin 4096) (c : Fin 128) :
    shapeCast ⟨4, ![4, 16, 4096, 128]⟩ x h (ix4 b d S c)
      = x (ix5 b d (⟨S.val / 64, by have := S.isLt; omega⟩ : Fin 64) (⟨S.val % 64, Nat.mod_lt _ (by decide)⟩ : Fin 64) c) := by
  have hS : S.val < 4096 := S.isLt
  refine shapeCast_apply x h _ _ ?_
  rewrite [Shape.rowMajor_val_five, Shape.rowMajor_val_four]
  show (((b.val * 16 + d.val) * 64 + S.val / 64) * 64 + S.val % 64) * 128 + c.val = ((b.val * 16 + d.val) * 4096 + S.val) * 128 + c.val
  omega

/-- The merged axis split again: `(h, w)` is position `h·64 + w`. -/
theorem splitHW_apply (A : (⟨4, ![4, 16, 4096, 128]⟩ : Shape).Idx → α)
    (h : (⟨4, ![4, 16, 4096, 128]⟩ : Shape).ShapeCasts ⟨5, ![4, 16, 64, 64, 128]⟩)
    (b : Fin 4) (d : Fin 16) (y : Fin 64) (w : Fin 64) (c : Fin 128) :
    shapeCast ⟨5, ![4, 16, 64, 64, 128]⟩ A h (ix5 b d y w c)
      = A (ix4 b d (⟨y.val * 64 + w.val, by have := y.isLt; have := w.isLt; omega⟩ : Fin 4096) c) := by
  refine shapeCast_apply A h _ _ ?_
  rewrite [Shape.rowMajor_val_four, Shape.rowMajor_val_five]
  show ((b.val * 16 + d.val) * 4096 + (y.val * 64 + w.val)) * 128 + c.val = (((b.val * 16 + d.val) * 64 + y.val) * 64 + w.val) * 128 + c.val
  omega

/-- Column `q` of a 128 × 4 matrix laid along the channel axis of a 16 × 1024 × 128 block: entry `(d, s, k)` is `(k, q)`. -/
theorem tapCol_apply (v : (⟨2, ![128, 4]⟩ : Shape).Idx → α) (q : Fin 4)
    (hs : (⟨2, ![128, 4]⟩ : Shape).Slices ![0, q.val] ⟨2, ![128, 1]⟩)
    (h1 : (⟨2, ![128, 1]⟩ : Shape).ShapeCasts ⟨1, ![128]⟩) (h2 : (⟨1, ![128]⟩ : Shape).ShapeCasts ⟨3, ![1, 1, 128]⟩)
    (hb : (⟨3, ![1, 1, 128]⟩ : Shape).Broadcasts ⟨3, ![16, 1024, 128]⟩) (d : Fin 16) (s : Fin 1024) (k : Fin 128) :
    broadcastTo ⟨3, ![16, 1024, 128]⟩
        (shapeCast ⟨3, ![1, 1, 128]⟩ (shapeCast ⟨1, ![128]⟩ (extractStridedSlice ⟨2, ![128, 1]⟩ ![0, q.val] v hs) h1) h2) hb (ix3 d s k)
      = v (ix2 k q) := by
  refine (broadcastTo_apply _ hb (ix3 d s k) (ix3 (0 : Fin 1) (0 : Fin 1) k) (fun a => ?_)).trans ?_
  · match a with
    | ⟨0, _⟩ => show 0 = if (1 : Nat) = 1 then 0 else d.val; rw [if_pos rfl]
    | ⟨1, _⟩ => show 0 = if (1 : Nat) = 1 then 0 else s.val; rw [if_pos rfl]
    | ⟨2, _⟩ => show k.val = if (128 : Nat) = 1 then 0 else k.val; rw [if_neg (by decide)]
  refine (shapeCast_apply _ h2 _ (ix1 k) ?_).trans ?_
  · rewrite [Shape.rowMajor_val_one, Shape.rowMajor_val_three]
    show k.val = (0 * 1 + 0) * 128 + k.val
    omega
  refine (shapeCast_apply _ h1 _ (ix2 k (0 : Fin 1)) ?_).trans ?_
  · rewrite [Shape.rowMajor_val_two, Shape.rowMajor_val_one]
    show k.val * 1 + 0 = k.val
    omega
  refine extractStridedSlice_apply _ v hs _ (ix2 k q) (fun a => ?_)
  match a with
  | ⟨0, _⟩ => show k.val = 0 + k.val; omega
  | ⟨1, _⟩ => show q.val = q.val + 0; omega

/-- A block moved `n` steps down its leading axis behind `n` rows of the constant `z`: row `d` is row `d − n`, and `z` in
    the first `n` rows. -/
theorem shiftRows_apply (n m : Nat) (hnm : n + m = 16) (z : α) (v : (⟨3, ![16, 1024, 128]⟩ : Shape).Idx → α)
    (hs : (⟨3, ![16, 1024, 128]⟩ : Shape).Slices ![0, 0, 0] ⟨3, ![m, 1024, 128]⟩)
    (hc : Shape.Concatenates [(⟨3, ![n, 1024, 128]⟩ : Shape), ⟨3, ![m, 1024, 128]⟩] ⟨3, ![16, 1024, 128]⟩ 0)
    (d : Fin 16) (s : Fin 1024) (k : Fin 128) :
    concatenate ⟨3, ![16, 1024, 128]⟩ 0
        [⟨⟨3, ![n, 1024, 128]⟩, broadcast ⟨3, ![n, 1024, 128]⟩ z⟩,
         ⟨⟨3, ![m, 1024, 128]⟩, extractStridedSlice ⟨3, ![m, 1024, 128]⟩ ![0, 0, 0] v hs⟩] hc (ix3 d s k)
      = if h : n ≤ d.val then v (ix3 (⟨d.val - n, by have := d.isLt; omega⟩ : Fin 16) s k) else z := by
  have hd : d.val < 16 := d.isLt
  by_cases h : n ≤ d.val
  · rw [dif_pos h]
    refine (concatenate_pair_apply_right (t := ⟨3, ![16, 1024, 128]⟩) (s₁ := ⟨3, ![n, 1024, 128]⟩) (s₂ := ⟨3, ![m, 1024, 128]⟩)
      (0 : Fin 3) _ _ hc (ix3 d s k) rfl rfl
      (ix3 (⟨d.val - n, by omega⟩ : Fin m) s k) (fun b hb => ?_) ?_).trans ?_
    · match b with
      | ⟨0, _⟩ => exact absurd rfl hb
      | ⟨1, _⟩ => rfl
      | ⟨2, _⟩ => rfl
    · show d.val - n + n = d.val
      omega
    refine extractStridedSlice_apply _ v hs _ _ (fun a => ?_)
    match a with
    | ⟨0, _⟩ => show d.val - n = 0 + (d.val - n); omega
    | ⟨1, _⟩ => show s.val = 0 + s.val; omega
    | ⟨2, _⟩ => show k.val = 0 + k.val; omega
  · rw [dif_neg h]
    refine (concatenate_pair_apply_left (t := ⟨3, ![16, 1024, 128]⟩) (s₁ := ⟨3, ![n, 1024, 128]⟩) (s₂ := ⟨3, ![m, 1024, 128]⟩)
      (0 : Fin 3) _ _ hc (ix3 d s k) rfl
      (ix3 (⟨d.val, by omega⟩ : Fin n) s k) (fun b => ?_)).trans rfl
    match b with
    | ⟨0, _⟩ => rfl
    | ⟨1, _⟩ => rfl
    | ⟨2, _⟩ => rfl

/-- A 128-vector laid along every row of a 16384 × 128 matrix. -/
theorem biasRow_apply (v : (⟨1, ![128]⟩ : Shape).Idx → α) (h1 : (⟨1, ![128]⟩ : Shape).ShapeCasts ⟨2, ![1, 128]⟩)
    (hb : (⟨2, ![1, 128]⟩ : Shape).Broadcasts ⟨2, ![16384, 128]⟩) (r : Fin 16384) (o : Fin 128) :
    broadcastTo ⟨2, ![16384, 128]⟩ (shapeCast ⟨2, ![1, 128]⟩ v h1) hb (ix2 r o) = v (ix1 o) := by
  refine (broadcastTo_apply _ hb (ix2 r o) (ix2 (0 : Fin 1) o) (fun a => ?_)).trans ?_
  · match a with
    | ⟨0, _⟩ => show 0 = if (1 : Nat) = 1 then 0 else r.val; rw [if_pos rfl]
    | ⟨1, _⟩ => show o.val = if (128 : Nat) = 1 then 0 else o.val; rw [if_neg (by decide)]
  refine shapeCast_apply v h1 _ (ix1 o) ?_
  rewrite [Shape.rowMajor_val_one, Shape.rowMajor_val_two]
  show o.val = 0 * 128 + o.val
  omega

/-- The leading axes 16 × 1024 merged into 16384 rows: row `d·1024 + s` is `(d, s)`. -/
theorem rows_apply (v : (⟨3, ![16, 1024, 128]⟩ : Shape).Idx → α)
    (h : (⟨3, ![16, 1024, 128]⟩ : Shape).ShapeCasts ⟨2, ![16384, 128]⟩) (d : Fin 16) (s : Fin 1024) (k : Fin 128) :
    shapeCast ⟨2, ![16384, 128]⟩ v h
        (ix2 (⟨d.val * 1024 + s.val, by have := d.isLt; have := s.isLt; omega⟩ : Fin 16384) k) = v (ix3 d s k) := by
  refine shapeCast_apply v h _ _ ?_
  rewrite [Shape.rowMajor_val_three, Shape.rowMajor_val_two]
  show (d.val * 1024 + s.val) * 128 + k.val = (d.val * 1024 + s.val) * 128 + k.val
  rfl

/-- The rows split again. -/
theorem unrows_apply (v : (⟨2, ![16384, 128]⟩ : Shape).Idx → α)
    (h : (⟨2, ![16384, 128]⟩ : Shape).ShapeCasts ⟨3, ![16, 1024, 128]⟩) (d : Fin 16) (s : Fin 1024) (k : Fin 128) :
    shapeCast ⟨3, ![16, 1024, 128]⟩ v h (ix3 d s k)
      = v (ix2 (⟨d.val * 1024 + s.val, by have := d.isLt; have := s.isLt; omega⟩ : Fin 16384) k) := by
  refine shapeCast_apply v h _ _ ?_
  rewrite [Shape.rowMajor_val_two, Shape.rowMajor_val_three]
  show (d.val * 1024 + s.val) * 128 + k.val = (d.val * 1024 + s.val) * 128 + k.val
  rfl

/-- A leading axis of extent one dropped from a block. -/
theorem dropLead_apply (v : (⟨4, ![1, 16, 1024, 128]⟩ : Shape).Idx → α)
    (h : (⟨4, ![1, 16, 1024, 128]⟩ : Shape).ShapeCasts ⟨3, ![16, 1024, 128]⟩) (d : Fin 16) (s : Fin 1024) (k : Fin 128) :
    shapeCast ⟨3, ![16, 1024, 128]⟩ v h (ix3 d s k) = v (ix4 (0 : Fin 1) d s k) := by
  refine shapeCast_apply v h _ _ ?_
  rewrite [Shape.rowMajor_val_four, Shape.rowMajor_val_three]
  show ((0 * 16 + d.val) * 1024 + s.val) * 128 + k.val = (d.val * 1024 + s.val) * 128 + k.val
  omega

/-- And added again. -/
theorem addLead_apply (v : (⟨3, ![16, 1024, 128]⟩ : Shape).Idx → α)
    (h : (⟨3, ![16, 1024, 128]⟩ : Shape).ShapeCasts ⟨4, ![1, 16, 1024, 128]⟩) (d : Fin 16) (s : Fin 1024) (k : Fin 128) :
    shapeCast ⟨4, ![1, 16, 1024, 128]⟩ v h (ix4 (0 : Fin 1) d s k) = v (ix3 d s k) := by
  refine shapeCast_apply v h _ _ ?_
  rewrite [Shape.rowMajor_val_three, Shape.rowMajor_val_four]
  show (d.val * 1024 + s.val) * 128 + k.val = ((0 * 16 + d.val) * 1024 + s.val) * 128 + k.val
  omega

end Cert.Cepstral

end
-- ==== Proof.Payload.lean ====
/-
  What the kernel's body stores, read at one index of its block.

  The body loads a block `x0` of the input (1 × 16 × 1024 × 128: all 16 depths of 1024 merged image positions, 128
  channels), the tiled filter `x1` (128 × 4), the matrix `x2` (128 × 128) and the bias `x3` (128). At `(0, d, s, o)` it
  stores: the causal four-tap filter along the depth axis of each channel `k` of column `(·, s, k)`, taken at depth `d`
  — `y k` —, then `Σ_k y k · x2[k, o] + Σ_k (y k − y k) · x2[k, o] + x3[o]`: the matrix product is formed on the 16384 rows
  `d·1024 + s`, once with `y` and once with the remainder `y − y`, and row `d·1024 + s` is `(d, s)` again when the
  result is laid back into the block.
-/
import proofs.«109472_j69750268887568_2_alg».proof.Proof.Gen.KernelIdeal.Skeleton
import proofs.«109472_j69750268887568_2_alg».proof.Proof.Spec
import proofs.«109472_j69750268887568_2_alg».proof.Proof.Layout
import Idealize.ShloMosaic.PureOps.Ideal.Laws
import Idealize.ShloMosaic.Lib.ValueIdx

noncomputable section

namespace Cert.KernelIdeal.Bridge

open Cert.KernelIdeal Cert.KernelIdeal.Gen Idealize.ShloMosaic Idealize.ShloMosaic.ValueIdx Cert.Cepstral

/-- The filter chain at `(d, s, k)`: the block times tap 0, plus the block moved one, two and three steps down the depth
    axis (behind rows of the zero word) times taps 1, 2 and 3, is the causal filter of column `(·, s, k)` at `d`. -/
theorem filt_apply (x0 : FVec Ideal S1x16x1024x128 .f32) (x1 : FVec Ideal S128x4 .f32)
    (hd : S1x16x1024x128.ShapeCasts S16x1024x128)
    (hs0 : S128x4.Slices ![0, 0] S128x1) (hs1 : S128x4.Slices ![0, 1] S128x1)
    (hs2 : S128x4.Slices ![0, 2] S128x1) (hs3 : S128x4.Slices ![0, 3] S128x1)
    (h1 : S128x1.ShapeCasts S128) (h2 : S128.ShapeCasts S1x1x128) (hb : S1x1x128.Broadcasts S16x1024x128)
    (hl1 : S16x1024x128.Slices ![0, 0, 0] S15x1024x128) (hl2 : S16x1024x128.Slices ![0, 0, 0] S14x1024x128)
    (hl3 : S16x1024x128.Slices ![0, 0, 0] S13x1024x128)
    (hc1 : Shape.Concatenates [S1x1024x128, S15x1024x128] S16x1024x128 0)
    (hc2 : Shape.Concatenates [S2x1024x128, S14x1024x128] S16x1024x128 0)
    (hc3 : Shape.Concatenates [S3x1024x128, S13x1024x128] S16x1024x128 0)
    (d : Fin 16) (s : Fin 1024) (k : Fin 128) :
    addf (F := Ideal)
      (addf
        (addf
          (mulf (shapeCast S16x1024x128 x0 hd)
            (broadcastTo S16x1024x128 (shapeCast S1x1x128 (shapeCast S128 (extractStridedSlice S128x1 ![0, 0] x1 hs0) h1) h2) hb))
          (mulf
            (concatenate S16x1024x128 0
              [⟨S1x1024x128, broadcast S1x1024x128 (FloatOps.ofBits FTy.f32 0x00000000#32)⟩,
               ⟨S15x1024x128, extractStridedSlice S15x1024x128 ![0, 0, 0] (shapeCast S16x1024x128 x0 hd) hl1⟩] hc1)
            (broadcastTo S16x1024x128 (shapeCast S1x1x128 (shapeCast S128 (extractStridedSlice S128x1 ![0, 1] x1 hs1) h1) h2) hb)))
        (mulf
          (concatenate S16x1024x128 0
            [⟨S2x1024x128, broadcast S2x1024x128 (FloatOps.ofBits FTy.f32 0x00000000#32)⟩,
             ⟨S14x1024x128, extractStridedSlice S14x1024x128 ![0, 0, 0] (shapeCast S16x1024x128 x0 hd) hl2⟩] hc2)
          (broadcastTo S16x1024x128 (shapeCast S1x1x128 (shapeCast S128 (extractStridedSlice S128x1 ![0, 2] x1 hs2) h1) h2) hb)))
      (mulf
        (concatenate S16x1024x128 0
          [⟨S3x1024x128, broadcast S3x1024x128 (FloatOps.ofBits FTy.f32 0x00000000#32)⟩,
           ⟨S13x1024x128, extractStridedSlice S13x1024x128 ![0, 0, 0] (shapeCast S16x1024x128 x0 hd) hl3⟩] hc3)
        (broadcastTo S16x1024x128 (shapeCast S1x1x128 (shapeCast S128 (extractStridedSlice S128x1 ![0, 3] x1 hs3) h1) h2) hb))
      (ix3 d s k)
    = conv (fun d' : Fin 16 => x0 (ix4 (0 : Fin 1) d' s k)) (fun q : Fin 4 => x1 (ix2 k q)) d := by
  -- a block moved n steps, at (d, s, k), is the column moved n steps, at d
  have moved : ∀ (n m : Nat) (hnm : n + m = 16)
      (hl : S16x1024x128.Slices ![0, 0, 0] ⟨3, ![m, 1024, 128]⟩)
      (hc : Shape.Concatenates [(⟨3, ![n, 1024, 128]⟩ : Shape), ⟨3, ![m, 1024, 128]⟩] S16x1024x128 0),
      concatenate S16x1024x128 0
          [⟨⟨3, ![n, 1024, 128]⟩, broadcast ⟨3, ![n, 1024, 128]⟩ (FloatOps.ofBits (F := Ideal) FTy.f32 0x00000000#32)⟩,
           ⟨⟨3, ![m, 1024, 128]⟩, extractStridedSlice ⟨3, ![m, 1024, 128]⟩ ![0, 0, 0] (shapeCast S16x1024x128 x0 hd) hl⟩] hc
          (ix3 d s k)
        = shifted (fun d' : Fin 16 => x0 (ix4 (0 : Fin 1) d' s k)) d n := by
    intro n m hnm hl hc
    refine (shiftRows_apply n m hnm _ (shapeCast S16x1024x128 x0 hd) hl hc d s k).trans ?_
    unfold shifted
    split
    · exact dropLead_apply x0 hd _ s k
    · exact Ideal.ofBits_zero_f32
  unfold conv
  refine congrArg₂ (· + ·) (congrArg₂ (· + ·) (congrArg₂ (· + ·) (congrArg₂ (· * ·) ?_ ?_) (congrArg₂ (· * ·) ?_ ?_))
    (congrArg₂ (· * ·) ?_ ?_)) (congrArg₂ (· * ·) ?_ ?_)
  · exact dropLead_apply x0 hd d s k
  · exact tapCol_apply x1 (0 : Fin 4) hs0 h1 h2 hb d s k
  · exact moved 1 15 rfl hl1 hc1
  · exact tapCol_apply x1 (1 : Fin 4) hs1 h1 h2 hb d s k
  · exact moved 2 14 rfl hl2 hc2
  · exact tapCol_apply x1 (2 : Fin 4) hs2 h1 h2 hb d s k
  · exact moved 3 13 rfl hl3 hc3
  · exact tapCol_apply x1 (3 : Fin 4) hs3 h1 h2 hb d s k

/-! ## The two matrix products -/

theorem lhs_row (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl

theorem lhs_contr (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q

theorem rhs_contr (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q

theorem rhs_col (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- A product of a 16384 × 128 matrix `A` with `x2` into the zero accumulator, at row `r` and column `o`, is the sum over
    the 128 channels. -/
theorem prod_apply (A : FVec Ideal S16384x128 .bf16) (B : FVec Ideal S128x128 .bf16) (r : Fin 16384) (o : Fin 128) :
    matmul (F := Ideal) dot_S16384x128_S128x128_S16384x128_1_0_0_1_n_n none A B (constant S16384x128 .f32 0x00000000#32) (ix2 r o)
      = ∑ k : Fin 128, A (ix2 r k) * B (ix2 k o) := by
  refine (Ideal.matmul_constant_zero_apply dot_S16384x128_S128x128_S16384x128_1_0_0_1_n_n none A B (ix2 r o)).trans ?_
  rw [← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r o)
      ((contrEquiv1 dot_S16384x128_S128x128_S16384x128_1_0_0_1_n_n 128 rfl rfl).symm k) = ix2 r k :=
    funext fun a => Fin.ext (by
      match a with
      | ⟨0, _⟩ => exact lhs_row _ _
      | ⟨1, _⟩ => exact (lhs_contr _ _).trans hk)
  have er : dot_S16384x128_S128x128_S16384x128_1_0_0_1_n_n.rhsIdx (ix2 r o)
      ((contrEquiv1 dot_S16384x128_S128x128_S16384x128_1_0_0_1_n_n 128 rfl rfl).symm k) = ix2 k o :=
    funext fun a => Fin.ext (by
      match a with
      | ⟨0, _⟩ => exact (rhs_contr _ _).trans hk
      | ⟨1, _⟩ => exact rhs_col _ _)
  rw [el, er]

/-- The product formed on the filtered block `Y` and again on its remainder `Y − Y`, at row `d·1024 + s`. -/
theorem mix_apply (Y : FVec Ideal S16x1024x128 .f32) (x2 : FVec Ideal S128x128 .f32)
    (hc : S16x1024x128.ShapeCasts S16384x128) (hb : FTy.bits .bf16 < FTy.bits .f32)
    (d : Fin 16) (s : Fin 1024) (o : Fin 128) :
    addf (F := Ideal)
      (matmul dot_S16384x128_S128x128_S16384x128_1_0_0_1_n_n none (truncf .bf16 (shapeCast S16384x128 Y hc) hb)
        (truncf .bf16 x2 hb) (constant S16384x128 .f32 0x00000000#32))
      (matmul dot_S16384x128_S128x128_S16384x128_1_0_0_1_n_n none
        (truncf .bf16 (subf (shapeCast S16384x128 Y hc) (shapeCast S16384x128 Y hc)) hb)
        (truncf .bf16 x2 hb) (constant S16384x128 .f32 0x00000000#32))
      (ix2 (⟨d.val * 1024 + s.val, by have := d.isLt; have := s.isLt; omega⟩ : Fin 16384) o)
    = (∑ k : Fin 128, Y (ix3 d s k) * x2 (ix2 k o)) + ∑ k : Fin 128, (Y (ix3 d s k) - Y (ix3 d s k)) * x2 (ix2 k o) := by
  refine (congrArg₂ (· + ·) (prod_apply _ _ _ o) (prod_apply _ _ _ o)).trans ?_
  refine congrArg₂ (· + ·) (Finset.sum_congr rfl fun k _ => ?_) (Finset.sum_congr rfl fun k _ => ?_)
  · exact congrArg (· * x2 (ix2 k o)) (rows_apply Y hc d s k)
  · exact congrArg (· * x2 (ix2 k o)) (congrArg₂ (· - ·) (rows_apply Y hc d s k) (rows_apply Y hc d s k))

/-! ## The stored value -/

/-- The body's stored value at `(0, d, s, o)` of its block. -/
theorem pay_apply (x0 : Vec Ideal S1x16x1024x128 .f32) (x1 : Vec Ideal S128x4 .f32) (x2 : Vec Ideal S128x128 .f32)
    (x3 : Vec Ideal S128 .f32) (d : Fin 16) (s : Fin 1024) (o : Fin 128) :
    k0_pay1 (F := Ideal) (k0_pay2 x0 x1 x2) x3 (ix4 (0 : Fin 1) d s o)
      = projSplit (fun k : Fin 128 => conv (fun d' : Fin 16 => x0 (ix4 (0 : Fin 1) d' s k)) (fun q : Fin 4 => x1 (ix2 k q)) d)
          (fun k : Fin 128 => x2 (ix2 k o)) (x3 (ix1 o)) := by
  unfold k0_pay1
  refine (addLead_apply _ _ d s o).trans ?_
  refine (unrows_apply _ _ d s o).trans ?_
  unfold projSplit
  refine congrArg₂ (· + ·) ?_ (biasRow_apply x3 _ _ _ o)
  unfold k0_pay2
  refine (mix_apply _ x2 _ _ d s o).trans ?_
  have hy : ∀ k : Fin 128, _ = conv (fun d' : Fin 16 => x0 (ix4 (0 : Fin 1) d' s k)) (fun q : Fin 4 => x1 (ix2 k q)) d :=
    fun k => filt_apply x0 x1 shapeCasts_S1x16x1024x128_S16x1024x128 slices_S128x4_o0_0_S128x1 slices_S128x4_o0_1_S128x1
      slices_S128x4_o0_2_S128x1 slices_S128x4_o0_3_S128x1 shapeCasts_S128x1_S128 shapeCasts_S128_S1x1x128
      broadcasts_S1x1x128_S16x1024x128 slices_S16x1024x128_o0_0_0_S15x1024x128 slices_S16x1024x128_o0_0_0_S14x1024x128
      slices_S16x1024x128_o0_0_0_S13x1024x128 concatenates_S1x1024x128_S15x1024x128_S16x1024x128_d0
      concatenates_S2x1024x128_S14x1024x128_S16x1024x128_d0 concatenates_S3x1024x128_S13x1024x128_S16x1024x128_d0 d s k
  refine congrArg₂ (· + ·) (Finset.sum_congr rfl fun k _ => ?_) (Finset.sum_congr rfl fun k _ => ?_)
  · exact congrArg (· * x2 (ix2 k o)) (hy k)
  · exact congrArg (· * x2 (ix2 k o)) (congrArg₂ (· - ·) (hy k) (hy k))

end Cert.KernelIdeal.Bridge

end
-- ==== Proof.Blocks.lean ====
/-
  From the blocks to the array.

  The grid has 4 × 4 points; point `(bi, si)` works on batch `bi` and on the merged image positions
  `si·1024 … si·1024 + 1023`, all 16 depths and all 128 channels: element `(0, d, s, o)` of its block is element
  `(bi, d, si·1024 + s, o)` of the array, for the input window and the output window alike; the tiled filter, the matrix
  and the bias are staged whole. Since the filter runs along the depth axis only and the mixing along the channel axis
  only, both of which lie inside every block, what a point writes back is its block of ONE function of the whole arrays,
  and the 16 blocks tile the output array: the array ends holding that function.
-/
import proofs.«109472_j69750268887568_2_alg».proof.Proof.Gen.KernelIdeal.Frame
import proofs.«109472_j69750268887568_2_alg».proof.Proof.Payload
import Idealize.ShloMosaic.Lib.Pipeline.Value

noncomputable section

namespace Cert.KernelIdeal.Bridge

open Cert.KernelIdeal Cert.KernelIdeal.Gen Idealize.ShloMosaic Idealize.ShloMosaic.TcCoe Idealize.ShloMosaic.ValueIdx
open Idealize.SL.Sem Cert.Cepstral
open Idealize.ShloMosaic.Pipeline (Dat)

/-- The output array (4 × 16 × 4096 × 128) as a function of the input with its image axes merged `A3`, the tiled
    filter `A2`, the matrix and the bias. -/
def Garr (A3 : S4x16x4096x128.Idx → EReal) (A2 : S128x4.Idx → EReal) (W : S128x128.Idx → EReal) (bias : S128.Idx → EReal) :
    S4x16x4096x128.Idx → EReal :=
  fun i => projSplit (fun k : Fin 128 => conv (fun d' : Fin 16 => A3 (ix4 (i 0) d' (i 2) k)) (fun q : Fin 4 => A2 (ix2 k q)) (i 1))
    (fun k : Fin 128 => W (ix2 k (i 3))) (bias (ix1 (i 3)))

/-- The merged image position of element `s` of image block `si`. -/
theorem pos_lt (si : Fin 4) (s : Fin 1024) : si.val * 1024 + s.val < 4096 := by
  have := si.isLt; have := s.isLt; omega

/-- What the body stores at an element of its block is `Garr` at the element's place in the array, when the loaded
    blocks are the arrays read at block `(bi, si)`. -/
theorem block_apply (x0 : Vec Ideal S1x16x1024x128 .f32) (x1 : Vec Ideal S128x4 .f32) (x2 : Vec Ideal S128x128 .f32)
    (x3 : Vec Ideal S128 .f32) (A3 : S4x16x4096x128.Idx → EReal) (A2 : S128x4.Idx → EReal) (W : S128x128.Idx → EReal)
    (bias : S128.Idx → EReal) (bi : Fin 4) (si : Fin 4)
    (h0 : ∀ (d : Fin 16) (s : Fin 1024) (k : Fin 128),
      x0 (ix4 (0 : Fin 1) d s k) = A3 (ix4 bi d (⟨si.val * 1024 + s.val, pos_lt si s⟩ : Fin 4096) k))
    (h1 : ∀ (k : Fin 128) (q : Fin 4), x1 (ix2 k q) = A2 (ix2 k q))
    (h2 : ∀ (k o : Fin 128), x2 (ix2 k o) = W (ix2 k o))
    (h3 : ∀ o : Fin 128, x3 (ix1 o) = bias (ix1 o))
    (j : S1x16x1024x128.Idx) (i : S4x16x4096x128.Idx)
    (hi0 : (i 0).val = bi.val) (hi1 : (i 1).val = (j 1).val) (hi2 : (i 2).val = si.val * 1024 + (j 2).val)
    (hi3 : (i 3).val = (j 3).val) :
    k0_pay1 (F := Ideal) (k0_pay2 x0 x1 x2) x3 j = Garr A3 A2 W bias i := by
  obtain ⟨z, d, s, o, rfl⟩ : ∃ (z : Fin 1) (d : Fin 16) (s : Fin 1024) (o : Fin 128), j = ix4 z d s o :=
    ⟨j 0, j 1, j 2, j 3, eq_ix4 j⟩
  obtain rfl : z = 0 := Subsingleton.elim _ _
  obtain rfl : i = ix4 bi d (⟨si.val * 1024 + s.val, pos_lt si s⟩ : Fin 4096) o :=
    funext fun a => Fin.ext (by
      match a with
      | ⟨0, _⟩ => exact hi0
      | ⟨1, _⟩ => exact hi1
      | ⟨2, _⟩ => exact hi2
      | ⟨3, _⟩ => exact hi3)
  refine (pay_apply x0 x1 x2 x3 d s o).trans ?_
  show projSplit (fun k : Fin 128 => conv (fun d' : Fin 16 => x0 (ix4 (0 : Fin 1) d' s k)) (fun q : Fin 4 => x1 (ix2 k q)) d)
      (fun k : Fin 128 => x2 (ix2 k o)) (x3 (ix1 o))
    = projSplit (fun k : Fin 128 => conv (fun d' : Fin 16 =>
        A3 (ix4 bi d' (⟨si.val * 1024 + s.val, pos_lt si s⟩ : Fin 4096) k)) (fun q : Fin 4 => A2 (ix2 k q)) d)
      (fun k : Fin 128 => W (ix2 k o)) (bias (ix1 o))
  simp only [h0, h1, h2, h3]

/-! ## The pipeline -/

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 16 points: the input window moves with the output window on the batch and
    the image axes and stays at block 0 on the depth and channel axes; the other three windows stay at block 0. -/
theorem idx_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_4.index t (1 : Fin 4) = 0 ∧ win0_4.index t (3 : Fin 4) = 0
    ∧ win0_4.index t (0 : Fin 4) < 4 ∧ win0_4.index t (2 : Fin 4) < 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-- Every block `(q0, 0, q2, 0)` of the output array is some point's. -/
theorem idx_onto : ∀ (q0 : Fin 4) (q2 : Fin 4), ∃ t : Fin cfg0.N, win0_4.index t = ![q0.val, 0, q2.val, 0] :=
  (by decide +kernel : ∀ (q0 : Fin 4) (q2 : Fin 4), ∃ t : Fin grid0.N, win0_4.index t = ![q0.val, 0, q2.val, 0])

/-- WHAT POINT `t` WRITES BACK is block `t` of `Garr` of the arrays as the region finds them. -/
theorem flushed_eq (c : Dev nD) (t : Fin cfg0.N) :
    (dats m 0 c).flushed 4 t = ((cfg0.win 4).blk t).view.read (Elt Ideal)
      (Garr (V m c main_v3) (V m c main_v2) (V m c main_arg2) (V m c main_arg3)) := by
  show (cfg0.win 4).cut (grid0.coords t) ((dats m 0 c).after 4 t) = _
  rw [after0_4]
  unfold out0_4
  rw [View.canon_unit_zero hz4]
  simp only [View.ld_unit_zero (S := S1x16x1024x128) hz4, View.ld_unit_zero (S := S128x4) hz2,
    View.ld_unit_zero (S := S128x128) hz2, View.ld_unit_zero (S := S128) hz1]
  obtain ⟨e0, e1, e2, e3, e4, e5, e6, e7, f0, f1, g0, g1, k0⟩ := idx_facts t
  funext j
  have hj0 : (j 0).val < 1 := (j 0).isLt
  have hj1 : (j 1).val < 16 := (j 1).isLt
  have hj2 : (j 2).val < 1024 := (j 2).isLt
  have hj3 : (j 3).val < 128 := (j 3).isLt
  show k0_pay1 (F := Ideal) (k0_pay2 (iblk m c 0 t) (iblk m c 1 t) (iblk m c 2 t)) (iblk m c 3 t) j
    = Garr (V m c main_v3) (V m c main_v2) (V m c main_arg2) (V m c main_arg3) (((cfg0.win 4).blk t).view.emb j)
  refine block_apply (iblk m c 0 t) (iblk m c 1 t) (iblk m c 2 t) (iblk m c 3 t)
    (V m c main_v3) (V m c main_v2) (V m c main_arg2) (V m c main_arg3)
    (⟨win0_4.index t (0 : Fin 4), e6⟩ : Fin 4) (⟨win0_4.index t (2 : Fin 4), e7⟩ : Fin 4)
    (fun d s k => ?_) (fun k q => ?_) (fun k o => ?_) (fun o => ?_) j (((cfg0.win 4).blk t).view.emb j) ?_ ?_ ?_ ?_
  · show V m c main_v3 (((cfg0.win 0).blk t).view.emb (ix4 (0 : Fin 1) d s k)) = V m c main_v3 _
    refine congrArg (V m c main_v3) (funext fun a => Fin.ext ?_)
    match a with
    | ⟨0, _⟩ => show win0_0.index t (0 : Fin 4) * 1 + 1 * 0 = win0_4.index t (0 : Fin 4); omega
    | ⟨1, _⟩ => show win0_0.index t (1 : Fin 4) * 16 + 1 * d.val = d.val; omega
    | ⟨2, _⟩ => show win0_0.index t (2 : Fin 4) * 1024 + 1 * s.val = win0_4.index t (2 : Fin 4) * 1024 + s.val; omega
    | ⟨3, _⟩ => show win0_0.index t (3 : Fin 4) * 128 + 1 * k.val = k.val; omega
  · show V m c main_v2 (((cfg0.win 1).blk t).view.emb (ix2 k q)) = V m c main_v2 _
    refine congrArg (V m c main_v2) (funext fun a => Fin.ext ?_)
    match a with
    | ⟨0, _⟩ => show win0_1.index t (0 : Fin 2) * 128 + 1 * k.val = k.val; omega
    | ⟨1, _⟩ => show win0_1.index t (1 : Fin 2) * 4 + 1 * q.val = q.val; omega
  · show V m c main_arg2 (((cfg0.win 2).blk t).view.emb (ix2 k o)) = V m c main_arg2 _
    refine congrArg (V m c main_arg2) (funext fun a => Fin.ext ?_)
    match a with
    | ⟨0, _⟩ => show win0_2.index t (0 : Fin 2) * 128 + 1 * k.val = k.val; omega
    | ⟨1, _⟩ => show win0_2.index t (1 : Fin 2) * 128 + 1 * o.val = o.val; omega
  · show V m c main_arg3 (((cfg0.win 3).blk t).view.emb (ix1 o)) = V m c main_arg3 _
    refine congrArg (V m c main_arg3) (funext fun a => Fin.ext ?_)
    match a with
    | ⟨0, _⟩ => show win0_3.index t (0 : Fin 1) * 128 + 1 * o.val = o.val; omega
  · show win0_4.index t (0 : Fin 4) * 1 + 1 * (j 0).val = win0_4.index t (0 : Fin 4); omega
  · show win0_4.index t (1 : Fin 4) * 16 + 1 * (j 1).val = (j 1).val; omega
  · show win0_4.index t (2 : Fin 4) * 1024 + 1 * (j 2).val = win0_4.index t (2 : Fin 4) * 1024 + (j 2).val; omega
  · show win0_4.index t (3 : Fin 4) * 128 + 1 * (j 3).val = (j 3).val; omega

/-- An index of the output array is in point `t`'s block iff each coordinate is in the block's range on its axis. -/
theorem mem_blk (t : Fin cfg0.N) (i : S4x16x4096x128.Idx) :
    i ∈ ((cfg0.win 4).blk t).view.set ↔ ∀ a : Fin 4, win0_4.index t a * S1x16x1024x128.size a ≤ (i a).val
      ∧ (i a).val < win0_4.index t a * S1x16x1024x128.size a + S1x16x1024x128.size a := by
  show i ∈ ((View.whole main_v4).slice (win0_4.rect t)).set ↔ _
  rw [View.set_slice_whole, Rect.mem_set_unit]
  exact Iff.rfl

/-- The blocks tile the output array: index `(b, d, S, o)` is in the block of the point at `(b, S / 1024)`. -/
theorem cover (i : S4x16x4096x128.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 4096 := (i 2).isLt
  have hi3 : (i 3).val < 128 := (i 3).isLt
  obtain ⟨t, ht⟩ := idx_onto ⟨(i 0).val, hi0⟩ ⟨(i 2).val / 1024, by omega⟩
  have q0 : win0_4.index t (0 : Fin 4) = (i 0).val := congrFun ht 0
  have q1 : win0_4.index t (1 : Fin 4) = 0 := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 128 ≤ (i 3).val ∧ (i 3).val < win0_4.index t (3 : Fin 4) * 128 + 128; omega

/-- THE OUTPUT ARRAY after the region. -/
theorem final (c : Dev nD) : (dats m 0 c).arrAt 4 cfg0.N
    = Garr (V m c main_v3) (V m c main_v2) (V m c main_arg2) (V m c main_arg3) :=
  (dats m 0 c).arrAt_eq_of_cover 4 _ (fun t _ => flushed_eq m c t) cover

end Cert.KernelIdeal.Bridge

end
-- ==== Proof.KernelRun.lean ====
/-
  The idealized kernel's whole program, read: its result array is `Gsplit` of its four arguments.

  Before the region the host merges the image axes of the input (64 × 64 → 4096) and tiles the filter down the 128
  channels; the region leaves the output array at `Garr` of those two arrays, the matrix and the bias (the blocks tile
  it); after the region the host splits the merged axis again. Position `h·64 + w` of the merged axis is `(h, w)`, and row
  `k` of the tiled filter is the taps of channel `k`, so the result at `(b, d, h, w, o)` is the stated function of the
  arguments.
-/
import proofs.«109472_j69750268887568_2_alg».proof.Proof.Blocks
import Idealize.ShloMosaic.Lib.StableHlo.Run

noncomputable section

namespace Cert.KernelIdeal.Bridge

open Cert.KernelIdeal Cert.KernelIdeal.Gen Idealize.ShloMosaic Idealize.ShloMosaic.TcCoe Idealize.ShloMosaic.ValueIdx
open Idealize.SL.Sem Idealize.ShloMosaic.StableHlo Cert.Cepstral
open Idealize.ShloMosaic.Pipeline (Dat)

/-- `Garr` of the merged input and the tiled filter, with the merged axis split again, is `Gsplit` of the input and the
    filter. -/
theorem value_eq (x : FVec Ideal S4x16x64x64x128 .f32) (kern : FVec Ideal S16x4 .f32) (W : FVec Ideal S128x128 .f32)
    (bias : FVec Ideal S128 .f32) (hm : S4x16x64x64x128.ShapeCasts S4x16x4096x128) (h1 : S16x4.ShapeCasts S1x16x1x4)
    (hb : S1x16x1x4.BroadcastsInDim S8x16x1x4 ![0, 1, 2, 3]) (h2 : S8x16x1x4.ShapeCasts S128x4)
    (hs : S4x16x4096x128.ShapeCasts S4x16x64x64x128) :
    shapeCast S4x16x64x64x128
        (Garr (shapeCast S4x16x4096x128 x hm)
          (shapeCast S128x4 (broadcastInDim S8x16x1x4 ![0, 1, 2, 3] hb (shapeCast S1x16x1x4 kern h1)) h2) W bias) hs
      = Gsplit x kern W bias := by
  funext i
  obtain ⟨b, d, y, w, o, rfl⟩ : ∃ (b : Fin 4) (d : Fin 16) (y w : Fin 64) (o : Fin 128), i = ix5 b d y w o :=
    ⟨i 0, i 1, i 2, i 3, i 4, eq_ix5 i⟩
  have hy : y.val < 64 := y.isLt
  have hw : w.val < 64 := w.isLt
  refine (splitHW_apply _ hs b d y w o).trans ?_
  have ex : ∀ (d' : Fin 16) (k : Fin 128),
      shapeCast S4x16x4096x128 x hm (ix4 b d' (⟨y.val * 64 + w.val, by omega⟩ : Fin 4096) k) = x (ix5 b d' y w k) :=
    fun d' k => (mergeHW_apply x hm b d' _ k).trans (congrArg x (funext fun a => by
      match a with
      | ⟨0, _⟩ => rfl
      | ⟨1, _⟩ => rfl
      | ⟨2, _⟩ => exact Fin.ext (show (y.val * 64 + w.val) / 64 = y.val by omega)
      | ⟨3, _⟩ => exact Fin.ext (show (y.val * 64 + w.val) % 64 = w.val by omega)
      | ⟨4, _⟩ => rfl))
  have et : ∀ (k : Fin 128) (q : Fin 4),
      shapeCast S128x4 (broadcastInDim S8x16x1x4 ![0, 1, 2, 3] hb (shapeCast S1x16x1x4 kern h1)) h2 (ix2 k q) = tapOf kern k q :=
    fun k q => tile_apply kern h1 hb h2 k q
  show projSplit (fun k : Fin 128 => conv (fun d' : Fin 16 =>
          shapeCast S4x16x4096x128 x hm (ix4 b d' (⟨y.val * 64 + w.val, by omega⟩ : Fin 4096) k))
        (fun q : Fin 4 => shapeCast S128x4 (broadcastInDim S8x16x1x4 ![0, 1, 2, 3] hb (shapeCast S1x16x1x4 kern h1)) h2 (ix2 k q)) d)
      (fun k : Fin 128 => W (ix2 k o)) (bias (ix1 o))
    = projSplit (fun k : Fin 128 => conv (fun d' : Fin 16 => x (ix5 b d' y w k)) (fun q : Fin 4 => tapOf kern k q) d)
      (fun k : Fin 128 => W (ix2 k o)) (bias (ix1 o))
  simp only [ex, et]

/-! ## The host stretches -/

variable (m : (ℓ : Loc nD τ sig) → Buf (Elt Ideal) ℓ) (ρ : Dev nD → PrngReg)

/-- The region finds the input with its image axes merged. -/
theorem V_merged (c : Dev nD) : (V m c main_v3 : S4x16x4096x128.Idx → EReal)
    = shapeCast S4x16x4096x128 (m ((c : Thread nD τ).loc main_arg0)) shapeCasts_S4x16x64x64x128_S4x16x4096x128 := by
  show StableHlo.after hostOps0 (fun b => m (c, b)) (Proc.devRef .tc main_v3) = _
  after_results
  rfl

/-- And the filter tiled. -/
theorem V_tiled (c : Dev nD) : (V m c main_v2 : S128x4.Idx → EReal)
    = shapeCast S128x4 (broadcastInDim S8x16x1x4 ![0, 1, 2, 3] bcast_S1x16x1x4_S8x16x1x4_0_1_2_3
        (shapeCast S1x16x1x4 (m ((c : Thread nD τ).loc main_arg1)) shapeCasts_S16x4_S1x16x1x4)) shapeCasts_S8x16x1x4_S128x4 := by
  show StableHlo.after hostOps0 (fun b => m (c, b)) (Proc.devRef .tc main_v2) = _
  after_results
  rfl

/-- After the region the result is the output array with its merged axis split. -/
theorem tail_split (c : Dev nD) : Pipeline.afterTail₀ cfgs (dats m) 0 (V0 m) [hostOps1] c main_v5
    = shapeCast S4x16x64x64x128 ((dats m 0 c).arrAt 4 cfg0.N) shapeCasts_S4x16x4096x128_S4x16x64x64x128 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = (dats m 0 c).arrAt 4 cfg0.N :=
    Pipeline.withArrays_arr (cfgs 0).spec launch0.win.arr_inj c (V0 m c) (fun w => (dats m 0 c).arrAt w (cfgs 0).N) 4
  rw [e]
  rfl

/-- The result, as a function of the arguments. -/
theorem result_eq (c : Dev nD) : Pipeline.afterTail₀ cfgs (dats m) 0 (V0 m) [hostOps1] c main_v5
    = Gsplit (m ((c : Thread nD τ).loc main_arg0)) (m ((c : Thread nD τ).loc main_arg1))
        (m ((c : Thread nD τ).loc main_arg2)) (m ((c : Thread nD τ).loc main_arg3)) := by
  rw [tail_split, final, V_merged, V_tiled, V_main_arg2, V_main_arg3]
  exact value_eq _ _ _ _ _ _ _ _ _

/-- THE RUN: every weakly fair execution terminates with the result array at `Gsplit` of the arguments and the
    arguments unchanged. -/
theorem run : θ_run defs (onTc (τ := τ) (main (F := Ideal))) ⟨m, fun _ => 0, ρ⟩ fun r => ∀ c : Dev nD,
      r.2.mem ((c.tc : Thread nD τ).loc main_v5)
        = Gsplit (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Bridge

end
-- ==== Proof.RefIsG.lean ====
/-
  The reference computes `G`.

  The reference pads the input with three zero planes in front of the depth axis (the padding value is the integer
  zero converted to a float, which is the float zero), takes the four windows of 16 planes that start at planes 3, 2,
  1 and 0 — plane `(3 − n) + d` of the padded array is plane `d − n` of the input, or zero when `d < n` —, multiplies
  each by a column of the tiled filter laid along the channel axis, adds them up starting from a zero array, contracts
  the channel axis with the matrix and adds the bias laid along the channel axis.
-/
import proofs.«109472_j69750268887568_2_alg».proof.Proof.Gen.ReferenceIdeal.Read
import proofs.«109472_j69750268887568_2_alg».proof.Proof.Spec
import proofs.«109472_j69750268887568_2_alg».proof.Proof.Layout
import Idealize.ShloMosaic.Lib.KernelVsHost

noncomputable section

namespace Cert.ReferenceIdeal.Bridge

open Cert.ReferenceIdeal Cert.ReferenceIdeal.Gen Cert.ReferenceIdeal.Read Idealize.ShloMosaic Idealize.ShloMosaic.ValueIdx
open Cert.Cepstral

/-- The padded input at plane `e`: the input's plane `e − 3`, zero in the three planes in front. -/
theorem padded_apply (x0 : FVec Ideal S4x16x64x64x128 .f32) (b : Fin 4) (e : Fin 19) (y w : Fin 64) (k : Fin 128) :
    val_main_v3 (F := Ideal) x0 (ix5 b e y w k)
      = if h : 3 ≤ e.val then x0 (ix5 b (⟨e.val - 3, by have := e.isLt; omega⟩ : Fin 16) y w k) else 0 := by
  have he : e.val < 19 := e.isLt
  unfold val_main_v3
  by_cases h : 3 ≤ e.val
  · rw [dif_pos h]
    refine pad_apply_of_inside _ _ _ x0 _ _ _ (ix5 b e y w k) (ix5 b (⟨e.val - 3, by omega⟩ : Fin 16) y w k) (fun a => ?_)
    match a with
    | ⟨0, _⟩ => show b.val = 0 + b.val * (0 + 1); omega
    | ⟨1, _⟩ => show e.val = 3 + (e.val - 3) * (0 + 1); omega
    | ⟨2, _⟩ => show y.val = 0 + y.val * (0 + 1); omega
    | ⟨3, _⟩ => show w.val = 0 + w.val * (0 + 1); omega
    | ⟨4, _⟩ => show k.val = 0 + k.val * (0 + 1); omega
  · rw [dif_neg h]
    refine (pad_apply_of_not_inside _ _ _ x0 _ _ _ (ix5 b e y w k) (1 : Fin 5) (fun hh => h hh.1)).trans ?_
    exact sitofp_zero

/-- The window that starts at plane `3 − n` of the padded input, at depth `d`, is the column moved `n` steps. -/
theorem window_apply (x0 : FVec Ideal S4x16x64x64x128 .f32) (b : Fin 4) (d : Fin 16) (y w : Fin 64) (k : Fin 128)
    (n : Nat) (hn : n ≤ 3) :
    val_main_v3 (F := Ideal) x0 (ix5 b (⟨3 - n + d.val, by have := d.isLt; omega⟩ : Fin 19) y w k)
      = shifted (fun d' : Fin 16 => x0 (ix5 b d' y w k)) d n := by
  have hd : d.val < 16 := d.isLt
  rw [padded_apply]
  unfold shifted
  by_cases h : n ≤ d.val
  · rw [dif_pos h, dif_pos (show 3 ≤ 3 - n + d.val by omega)]
    exact congrArg (fun d' : Fin 16 => x0 (ix5 b d' y w k)) (Fin.ext (show 3 - n + d.val - 3 = d.val - n by omega))
  · rw [dif_neg h, dif_neg (show ¬ 3 ≤ 3 - n + d.val by omega)]

theorem shifted_zero (xcol : Fin 16 → EReal) (d : Fin 16) : shifted xcol d 0 = xcol d := by
  unfold shifted
  rw [dif_pos (Nat.zero_le _)]
  exact congrArg xcol (Fin.ext (Nat.sub_zero _))

/-- Row `k` of the tiled filter. -/
theorem tiled_apply (x1 : FVec Ideal S16x4 .f32) (k : Fin 128) (q : Fin 4) :
    val_main_v2 (F := Ideal) x1 (ix2 k q) = tapOf x1 k q := by
  unfold val_main_v2 val_main_v1 val_main_v0
  exact tile_apply x1 _ _ _ k q

/-- The four columns of the tiled filter laid along the channel axis. -/
theorem tap0_apply (x1 : FVec Ideal S16x4 .f32) (b : Fin 4) (d : Fin 16) (y w : Fin 64) (k : Fin 128) :
    val_main_v9 (F := Ideal) x1 (ix5 b d y w k) = tapOf x1 k 0 := by
  rw [val_main_v9_apply, val_main_v8_apply, val_main_v7_apply, val_main_v6_apply]
  have e : idx_main_v6 (idx_main_v7 (idx_main_v8 (idx_main_v9 (ix5 b d y w k)))) = ix2 k (0 : Fin 4) :=
    funext fun a => Fin.ext (by
      match a with
      | ⟨0, _⟩ => show k.val / 1 = k.val; omega
      | ⟨1, _⟩ => rfl)
  rw [e]; exact tiled_apply x1 k 0

theorem tap1_apply (x1 : FVec Ideal S16x4 .f32) (b : Fin 4) (d : Fin 16) (y w : Fin 64) (k : Fin 128) :
    val_main_v16 (F := Ideal) x1 (ix5 b d y w k) = tapOf x1 k 1 := by
  rw [val_main_v16_apply, val_main_v15_apply, val_main_v14_apply, val_main_v13_apply]
  have e : idx_main_v13 (idx_main_v14 (idx_main_v15 (idx_main_v16 (ix5 b d y w k)))) = ix2 k (1 : Fin 4) :=
    funext fun a => Fin.ext (by
      match a with
      | ⟨0, _⟩ => show k.val / 1 = k.val; omega
      | ⟨1, _⟩ => rfl)
  rw [e]; exact tiled_apply x1 k 1

theorem tap2_apply (x1 : FVec Ideal S16x4 .f32) (b : Fin 4) (d : Fin 16) (y w : Fin 64) (k : Fin 128) :
    val_main_v23 (F := Ideal) x1 (ix5 b d y w k) = tapOf x1 k 2 := by
  rw [val_main_v23_apply, val_main_v22_apply, val_main_v21_apply, val_main_v20_apply]
  have e : idx_main_v20 (idx_main_v21 (idx_main_v22 (idx_main_v23 (ix5 b d y w k)))) = ix2 k (2 : Fin 4) :=
    funext fun a => Fin.ext (by
      match a with
      | ⟨0, _⟩ => show k.val / 1 = k.val; omega
      | ⟨1, _⟩ => rfl)
  rw [e]; exact tiled_apply x1 k 2

theorem tap3_apply (x1 : FVec Ideal S16x4 .f32) (b : Fin 4) (d : Fin 16) (y w : Fin 64) (k : Fin 128) :
    val_main_v30 (F := Ideal) x1 (ix5 b d y w k) = tapOf x1 k 3 := by
  rw [val_main_v30_apply, val_main_v29_apply, val_main_v28_apply, val_main_v27_apply]
  have e : idx_main_v27 (idx_main_v28 (idx_main_v29 (idx_main_v30 (ix5 b d y w k)))) = ix2 k (3 : Fin 4) :=
    funext fun a => Fin.ext (by
      match a with
      | ⟨0, _⟩ => show k.val / 1 = k.val; omega
      | ⟨1, _⟩ => rfl)
  rw [e]; exact tiled_apply x1 k 3

/-- The four windows of the padded input. -/
theorem win0_apply (x0 : FVec Ideal S4x16x64x64x128 .f32) (b : Fin 4) (d : Fin 16) (y w : Fin 64) (k : Fin 128) :
    val_main_v5 (F := Ideal) x0 (ix5 b d y w k) = x0 (ix5 b d y w k) := by
  rw [val_main_v5_apply]
  have e : idx_main_v5 (ix5 b d y w k) = ix5 b (⟨3 - 0 + d.val, by have := d.isLt; omega⟩ : Fin 19) y w k :=
    funext fun a => Fin.ext (by
      match a with
      | ⟨0, _⟩ => rfl
      | ⟨1, _⟩ => rfl
      | ⟨2, _⟩ => rfl
      | ⟨3, _⟩ => rfl
      | ⟨4, _⟩ => rfl)
  rw [e, window_apply x0 b d y w k 0 (by omega), shifted_zero]

theorem win1_apply (x0 : FVec Ideal S4x16x64x64x128 .f32) (b : Fin 4) (d : Fin 16) (y w : Fin 64) (k : Fin 128) :
    val_main_v12 (F := Ideal) x0 (ix5 b d y w k) = shifted (fun d' : Fin 16 => x0 (ix5 b d' y w k)) d 1 := by
  rw [val_main_v12_apply]
  have e : idx_main_v12 (ix5 b d y w k) = ix5 b (⟨3 - 1 + d.val, by have := d.isLt; omega⟩ : Fin 19) y w k :=
    funext fun a => Fin.ext (by
      match a with
      | ⟨0, _⟩ => rfl
      | ⟨1, _⟩ => rfl
      | ⟨2, _⟩ => rfl
      | ⟨3, _⟩ => rfl
      | ⟨4, _⟩ => rfl)
  rw [e, window_apply x0 b d y w k 1 (by omega)]

theorem win2_apply (x0 : FVec Ideal S4x16x64x64x128 .f32) (b : Fin 4) (d : Fin 16) (y w : Fin 64) (k : Fin 128) :
    val_main_v19 (F := Ideal) x0 (ix5 b d y w k) = shifted (fun d' : Fin 16 => x0 (ix5 b d' y w k)) d 2 := by
  rw [val_main_v19_apply]
  have e : idx_main_v19 (ix5 b d y w k) = ix5 b (⟨3 - 2 + d.val, by have := d.isLt; omega⟩ : Fin 19) y w k :=
    funext fun a => Fin.ext (by
      match a with
      | ⟨0, _⟩ => rfl
      | ⟨1, _⟩ => rfl
      | ⟨2, _⟩ => rfl
      | ⟨3, _⟩ => rfl
      | ⟨4, _⟩ => rfl)
  rw [e, window_apply x0 b d y w k 2 (by omega)]

theorem win3_apply (x0 : FVec Ideal S4x16x64x64x128 .f32) (b : Fin 4) (d : Fin 16) (y w : Fin 64) (k : Fin 128) :
    val_main_v26 (F := Ideal) x0 (ix5 b d y w k) = shifted (fun d' : Fin 16 => x0 (ix5 b d' y w k)) d 3 := by
  rw [val_main_v26_apply]
  have e : idx_main_v26 (ix5 b d y w k) = ix5 b (⟨3 - 3 + d.val, by have := d.isLt; omega⟩ : Fin 19) y w k :=
    funext fun a => Fin.ext (by
      match a with
      | ⟨0, _⟩ => rfl
      | ⟨1, _⟩ => show d.val = 3 - 3 + d.val; omega
      | ⟨2, _⟩ => rfl
      | ⟨3, _⟩ => rfl
      | ⟨4, _⟩ => rfl)
  rw [e, window_apply x0 b d y w k 3 (by omega)]

/-- The array the sum starts from is zero. -/
theorem start_apply (i : S4x16x64x64x128.Idx) : val_main_v4 (F := Ideal) i = 0 := by
  rw [val_main_v4_apply, val_main_cst_apply]
  exact Ideal.ofBits_zero_f32

/-- The filtered array at `(b, d, y, w, k)`. -/
theorem filtered_apply (x0 : FVec Ideal S4x16x64x64x128 .f32) (x1 : FVec Ideal S16x4 .f32)
    (b : Fin 4) (d : Fin 16) (y w : Fin 64) (k : Fin 128) :
    val_main_v32 (F := Ideal) x0 x1 (ix5 b d y w k) = conv (fun d' : Fin 16 => x0 (ix5 b d' y w k)) (tapOf x1 k) d := by
  rw [val_main_v32_apply, val_main_v25_apply, val_main_v18_apply, val_main_v11_apply, val_main_v10_apply,
    val_main_v17_apply, val_main_v24_apply, val_main_v31_apply, start_apply, win0_apply, win1_apply, win2_apply,
    win3_apply, tap0_apply, tap1_apply, tap2_apply, tap3_apply]
  unfold conv
  simp only [Ideal.addf_def, Ideal.mulf_def, zero_add]

/-- The reference's result is `G` of its arguments. -/
theorem result_eq (x0 : FVec Ideal S4x16x64x64x128 .f32) (x1 : FVec Ideal S16x4 .f32) (x2 : FVec Ideal S128x128 .f32)
    (x3 : FVec Ideal S128 .f32) : val_main_v36 (F := Ideal) x0 x1 x2 x3 = G x0 x1 x2 x3 := by
  funext i
  obtain ⟨b, d, y, w, o, rfl⟩ : ∃ (b : Fin 4) (d : Fin 16) (y w : Fin 64) (o : Fin 128), i = ix5 b d y w o :=
    ⟨i 0, i 1, i 2, i 3, i 4, eq_ix5 i⟩
  rw [val_main_v36_apply, val_main_v33_apply, val_main_v35_apply, val_main_v34_apply]
  show (∑ k : Fin 128, val_main_v32 (F := Ideal) x0 x1 (lidx_main_v33 (ix5 b d y w o) k) * x2 (ridx_main_v33 (ix5 b d y w o) k))
      + x3 (idx_main_v34 (idx_main_v35 (ix5 b d y w o)))
    = proj (fun k : Fin 128 => conv (fun d' : Fin 16 => x0 (ix5 b d' y w k)) (tapOf x1 k) d)
        (fun k : Fin 128 => x2 (ix2 k o)) (x3 (ix1 o))
  unfold proj
  refine congrArg₂ (· + ·) (Finset.sum_congr rfl fun k _ => congrArg₂ (· * ·) ?_ ?_) ?_
  · have e : lidx_main_v33 (ix5 b d y w o) k = ix5 b d y w k :=
      funext fun a => Fin.ext (by
        match a with
        | ⟨0, _⟩ => rfl
        | ⟨1, _⟩ => rfl
        | ⟨2, _⟩ => rfl
        | ⟨3, _⟩ => rfl
        | ⟨4, _⟩ => rfl)
    rw [e]; exact filtered_apply x0 x1 b d y w k
  · exact congrArg x2 (funext fun a => Fin.ext (by
      match a with
      | ⟨0, _⟩ => rfl
      | ⟨1, _⟩ => rfl))
  · exact congrArg x3 (funext fun a => Fin.ext (by
      match a with
      | ⟨0, _⟩ => rfl))

end Cert.ReferenceIdeal.Bridge

end
-- ==== Proof.Finite.lean ====
/-
  From the precondition to real numbers.

  The precondition says that, for each of the four arguments, every element's absolute value is below `+∞` (the
  word `0x7F800000`), all four facts joined by `and`. An extended real whose absolute value `max a (−a)` is below `⊤` is
  neither `⊤` nor `⊥`: it is a real number. Only the input's and the filter's facts are needed.
-/
import proofs.«109472_j69750268887568_2_alg».proof.Proof.Gen.Pre_finite_inputs
import proofs.«109472_j69750268887568_2_alg».proof.Proof.Spec
import Idealize.ShloMosaic.Lib.ReduceAll
import Idealize.ShloMosaic.PureOps.Ideal.Laws

noncomputable section

namespace Cert.Cepstral

open Idealize.ShloMosaic Idealize.ShloMosaic.ValueIdx

/-- An extended real whose absolute value compares below the word of `+∞` is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

instance : Subsingleton Cert.Pre_finite_inputs.S_.Idx := ⟨fun a b => funext fun d => d.elim0⟩

/-- Under the precondition every element of the input and of the filter is a real number. -/
theorem finite_of_pre [Cert.Pre_finite_inputs.Facts]
    (a0 : FVec Ideal Cert.Pre_finite_inputs.S4x16x64x64x128 .f32) (a1 : FVec Ideal Cert.Pre_finite_inputs.S16x4 .f32)
    (a2 : FVec Ideal Cert.Pre_finite_inputs.S128x128 .f32) (a3 : FVec Ideal Cert.Pre_finite_inputs.S128 .f32)
    (h : Cert.Pre_finite_inputs.fn (F := Ideal) a0 a1 a2 a3 = fun _ => 1#1) :
    (∀ i, IsReal (a0 i)) ∧ ∀ i, IsReal (a1 i) := by
  have h0 := congrFun h ix0
  dsimp only [Cert.Pre_finite_inputs.fn, Cert.Pre_finite_inputs.fn_part1] at h0
  obtain ⟨h13, -⟩ := IntOp.andi_eq_one.1 h0
  obtain ⟨h8, -⟩ := IntOp.andi_eq_one.1 h13
  obtain ⟨h3, h7⟩ := IntOp.andi_eq_one.1 h8
  exact ⟨fun i => isReal_of_abs_lt_inf _ (Host.reduce_andi_all _ _ _ _ ix0 h3 i),
    fun i => isReal_of_abs_lt_inf _ (Host.reduce_andi_all _ _ _ _ ix0 h7 i)⟩

end Cert.Cepstral

end
-- ==== Proof.lean ====
/-
  A causal four-tap filter along the depth axis of a 4 × 16 × 64 × 64 × 128 array, channel by channel, followed by a
  128 × 128 mixing of the channels and a bias: the kernel against its reference, on the extended reals.

  Both programs filter each channel `c` along the depth axis with the taps of row `c mod 16` of a 16 × 4 filter,
      y[d] = x[d]·t₀ + x[d−1]·t₁ + x[d−2]·t₂ + x[d−3]·t₃     (terms reaching before depth 0 are zero),
  summed in that order, and then form `Σ_c y[c]·W[c, o] + b[o]` (`Cert.Cepstral.G`, Proof/Spec.lean).
  The reference pads three zero planes in front of the depth axis and adds four shifted windows onto a zero array
  (Proof/RefIsG.lean). The kernel merges the two image axes, works on blocks of 1024 merged positions that hold the
  whole depth and channel axes, shifts by concatenating zero rows in front (Proof/Payload.lean, Proof/Blocks.lean,
  Proof/KernelRun.lean), and forms the matrix product twice: once on `y` and once on the remainder `y − y` left after
  `y` is split into a leading part and a rest. At the ideal values that remainder is `0` exactly when `y` is a real
  number, so the two programs agree for finite inputs — which the precondition gives (Proof/Finite.lean) — and this is
  the one place where the precondition is used: with an infinite `y` the kernel's second product would not vanish.
-/
import proofs.«109472_j69750268887568_2_alg».proof.Defs
import proofs.«109472_j69750268887568_2_alg».proof.Proof.Gen.Kernel
import proofs.«109472_j69750268887568_2_alg».proof.Proof.Gen.Kernel.Skeleton
import proofs.«109472_j69750268887568_2_alg».proof.Proof.Gen.Kernel.Launch
import proofs.«109472_j69750268887568_2_alg».proof.Proof.Gen.Kernel.Points
import proofs.«109472_j69750268887568_2_alg».proof.Proof.Gen.Kernel.Frame
import proofs.«109472_j69750268887568_2_alg».proof.Proof.Gen.KernelIdeal
import proofs.«109472_j69750268887568_2_alg».proof.Proof.Gen.KernelIdeal.Skeleton
import proofs.«109472_j69750268887568_2_alg».proof.Proof.Gen.KernelIdeal.Launch
import proofs.«109472_j69750268887568_2_alg».proof.Proof.Gen.KernelIdeal.Points
import proofs.«109472_j69750268887568_2_alg».proof.Proof.Gen.KernelIdeal.Frame
import proofs.«109472_j69750268887568_2_alg».proof.Proof.Gen.ReferenceIdeal
import proofs.«109472_j69750268887568_2_alg».proof.Proof.Gen.ReferenceIdeal.Run
import proofs.«109472_j69750268887568_2_alg».proof.Proof.Gen.ReferenceIdeal.Read
import proofs.«109472_j69750268887568_2_alg».proof.Proof.Gen.Pre_finite_inputs
import proofs.«109472_j69750268887568_2_alg».proof.Proof.KernelRun
import proofs.«109472_j69750268887568_2_alg».proof.Proof.RefIsG
import proofs.«109472_j69750268887568_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: a value rounded to bf16 and widened back is the value itself at the ideal
    values. -/
theorem preserves : Cert.preserves_Kernel_KernelIdeal := IdealRules.truncf_extf.statement _ .f32 .bf16

/-- Both idealized programs end with the result at `G` of the arguments: the reference outright, the kernel because the
    precondition makes the filtered values real numbers, where its second product vanishes. -/
theorem algebraic : Cert.algebraic_KernelIdeal_ReferenceIdeal := by
  intro m ρ m' ρ' hpre hagree
  refine ⟨fun c => Cert.Cepstral.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Bridge.run m ρ)
    obtain ⟨hx, hk⟩ := Cert.Cepstral.finite_of_pre _ _ _ _ (hpre c)
    exact Cert.Cepstral.Gsplit_eq_G hx hk _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.Bridge.result_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
